-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S10000x512 : Shape := ⟨2, ![10000, 512]⟩

class Facts : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000x256 : S_.BroadcastsInDim S10000x256 (![] : Fin 0 → Fin S10000x256.rank)
  bcast_S320000_S320000x1_0 : S320000.BroadcastsInDim S320000x1 (![0] : Fin 1 → Fin S320000x1.rank)
  bcast_S_S320000 : S_.BroadcastsInDim S320000 (![] : Fin 0 → Fin S320000.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  reducesTo_S10000x256_S_d0_1 : S10000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  reducesTo_S10000x256_S10000_d1 : S10000x256.ReducesTo [1] S10000
  reducesTo_S10000_S_d0 : S10000.ReducesTo [0] S_
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []

variable [Facts]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def fn_part2 {F : FTy → Type} [FloatOps F] (main_v24 : FVec F S10000x256 .f32) (main_v33 : IVec S_ 1) (main_v36 : IVec S256 1) : IVec S_ 1 :=
  let main_c_9 : IVec S_ 1 := constantI S_ 1 1#1
  let main_v37 : IVec S_ 1 := (fun x v => Host.reduce IntOp.andi x v reducesTo_S256_S_d0 h_S_) main_v36 main_c_9
  let main_v38 : IVec S_ 1 := andi main_v33 main_v37
  let main_v39 : FVec F S10000x256 .f32 := mulf main_v24 main_v24
  let main_cst_10 : FVec F S_ .f32 := constant S_ .f32 0x00000000#32
  let main_v40 : FVec F S10000 .f32 := (fun x v => Host.reduceAdd x v reducesTo_S10000x256_S10000_d1 h_S_) main_v39 main_cst_10
  let main_cst_11 : FVec F S_ .f32 := constant S_ .f32 0x00000000#32
  let main_v41 : FVec F S10000 .f32 := broadcastInDim S10000 ![] bcast_S_S10000 main_cst_11
  let main_v42 : IVec S10000 1 := cmpf .ogt main_v40 main_v41
  let main_c_12 : IVec S_ 1 := constantI S_ 1 1#1
  let main_v43 : IVec S_ 1 := (fun x v => Host.reduce IntOp.andi x v reducesTo_S10000_S_d0 h_S_) main_v42 main_c_12
  let main_v44 : IVec S_ 1 := andi main_v38 main_v43
  main_v44

def fn_part1 {F : FTy → Type} [FloatOps F] (main_arg0 : FVec F S10000x256 .f32) (main_arg2 : FVec F S512x256 .f32) (main_arg3 : FVec F S256 .f32) (main_v13 : FVec F S10000x256 .f32) (main_v17 : FVec F S10000 .f32) (main_cst_3 : FVec F S_ .f32) : IVec S_ 1 :=
  let main_v18 : FVec F S10000 .f32 := broadcastInDim S10000 ![] bcast_S_S10000 main_cst_3
  let main_v19 : FVec F S10000 .f32 := maximumf main_v17 main_v18
  let main_v20 : FVec F S10000x1 .f32 := broadcastInDim S10000x1 ![0] bcast_S10000_S10000x1_0 main_v19
  let main_v21 : FVec F S10000x256 .f32 := broadcastInDim S10000x256 ![0, 1] bcast_S10000x1_S10000x256_0_1 main_v20
  let main_v22 : FVec F S10000x256 .f32 := Host.divf main_v13 main_v21
  let main_v23 : FVec F S10000x512 .f32 := (fun a b => concatenate S10000x512 1 [⟨S10000x256, a⟩, ⟨S10000x256, b⟩] concatenates_S10000x256_S10000x256_S10000x512_d1) main_arg0 main_v22
  let main_v24 : FVec F S10000x256 .f32 := (fun l r => Host.dotGeneral dot_S10000x512_S512x256_S10000x256_1_0_0_1_n_n none l r) main_v23 main_arg2
  let main_v25 : FVec F S10000x256 .f32 := Host.absf main_arg0
  let main_cst_4 : FVec F S_ .f32 := constant S_ .f32 0x7F800000#32
  let main_v26 : FVec F S10000x256 .f32 := broadcastInDim S10000x256 ![] bcast_S_S10000x256 main_cst_4
  let main_v27 : IVec S10000x256 1 := cmpf .olt main_v25 main_v26
  let main_c_5 : IVec S_ 1 := constantI S_ 1 1#1
  let main_v28 : IVec S_ 1 := (fun x v => Host.reduce IntOp.andi x v reducesTo_S10000x256_S_d0_1 h_S_) main_v27 main_c_5
  let main_v29 : FVec F S512x256 .f32 := Host.absf main_arg2
  let main_cst_6 : FVec F S_ .f32 := constant S_ .f32 0x7F800000#32
  let main_v30 : FVec F S512x256 .f32 := broadcastInDim S512x256 ![] bcast_S_S512x256 main_cst_6
  let main_v31 : IVec S512x256 1 := cmpf .olt main_v29 main_v30
  let main_c_7 : IVec S_ 1 := constantI S_ 1 1#1
  let main_v32 : IVec S_ 1 := (fun x v => Host.reduce IntOp.andi x v reducesTo_S512x256_S_d0_1 h_S_) main_v31 main_c_7
  let main_v33 : IVec S_ 1 := andi main_v28 main_v32
  let main_v34 : FVec F S256 .f32 := Host.absf main_arg3
  let main_cst_8 : FVec F S_ .f32 := constant S_ .f32 0x7F800000#32
  let main_v35 : FVec F S256 .f32 := broadcastInDim S256 ![] bcast_S_S256 main_cst_8
  let main_v36 : IVec S256 1 := cmpf .olt main_v34 main_v35
  fn_part2 (F := F) main_v24 main_v33 main_v36

def fn {F : FTy → Type} [FloatOps F] (main_arg0 : FVec F S10000x256 .f32) (main_arg1 : IVec S2x320000 32) (main_arg2 : FVec F S512x256 .f32) (main_arg3 : FVec F S256 .f32) : IVec S_ 1 :=
  let main_v0 : IVec S1x320000 32 := (extractStridedSlice S1x320000 ![0, 0] · slices_S2x320000_S1x320000_0_0) main_arg1
  let main_v1 : IVec S320000 32 := shapeCast S320000 main_v0 shapeCasts_S1x320000_S320000
  let main_v2 : IVec S1x320000 32 := (extractStridedSlice S1x320000 ![1, 0] · slices_S2x320000_S1x320000_1_0) main_arg1
  let main_v3 : IVec S320000 32 := shapeCast S320000 main_v2 shapeCasts_S1x320000_S320000
  let main_cst : FVec F S_ .f32 := constant S_ .f32 0x00000000#32
  let main_v4 : FVec F S10000x256 .f32 := broadcastInDim S10000x256 ![] bcast_S_S10000x256 main_cst
  let main_v5 : IVec S320000x1 32 := broadcastInDim S320000x1 ![0] bcast_S320000_S320000x1_0 main_v3
  let main_c : IVec S_ 32 := constantI S_ 32 0#32
  let main_v6 : IVec S320000 32 := broadcastInDim S320000 ![] bcast_S_S320000 main_c
  let main_v7 : IVec S320000 1 := cmpi .slt main_v1 main_v6
  let main_c_0 : IVec S_ 32 := constantI S_ 32 10000#32
  let main_v8 : IVec S320000 32 := broadcastInDim S320000 ![] bcast_S_S320000 main_c_0
  let main_v9 : IVec S320000 32 := addi main_v1 main_v8
  let main_v10 : IVec S320000 32 := select main_v7 main_v9 main_v1
  let main_v11 : IVec S320000x1 32 := broadcastInDim S320000x1 ![0] bcast_S320000_S320000x1_0 main_v10
  let main_v12 : FVec F S320000x256 .f32 := (fun x i => Host.gather gather_S10000x256_S320000x1_S320000x256_1_0_n_n_0_1_1256 x i) main_arg0 main_v11
  let main_v13 : FVec F S10000x256 .f32 := (fun x i u => Host.scatterAdd scatter_S10000x256_S320000x1_S320000x256_1_0_0_1 x i u) main_v4 main_v5 main_v12
  let main_cst_1 : FVec F S_ .f32 := constant S_ .f32 0x00000000#32
  let main_v14 : FVec F S10000 .f32 := broadcastInDim S10000 ![] bcast_S_S10000 main_cst_1
  let main_v15 : IVec S320000x1 32 := broadcastInDim S320000x1 ![0] bcast_S320000_S320000x1_0 main_v3
  let main_cst_2 : FVec F S_ .f32 := constant S_ .f32 0x3F800000#32
  let main_v16 : FVec F S320000 .f32 := broadcastInDim S320000 ![] bcast_S_S320000 main_cst_2
  let main_v17 : FVec F S10000 .f32 := (fun x i u => Host.scatterAdd scatter_S10000_S320000x1_S320000_n_0_0_1 x i u) main_v14 main_v15 main_v16
  let main_cst_3 : FVec F S_ .f32 := constant S_ .f32 0x3F800000#32
  fn_part1 (F := F) main_arg0 main_arg2 main_arg3 main_v13 main_v17 main_cst_3
-- ==== Kernel.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S256x256 : Shape := ⟨2, ![256, 256]⟩
abbrev S1x256 : Shape := ⟨2, ![1, 256]⟩
abbrev S2000x256 : Shape := ⟨2, ![2000, 256]⟩
abbrev S2000x1 : Shape := ⟨2, ![2000, 1]⟩
abbrev S2000 : Shape := ⟨1, ![2000]⟩

abbrev nBuf : Space → Nat
  | .hbm => 40
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S256x256, .f32⟩
  | .hbm, ⟨35, _⟩ => ⟨S256x256, .f32⟩
  | .hbm, ⟨36, _⟩ => ⟨S1x256, .f32⟩
  | .hbm, ⟨37, _⟩ => ⟨S10000x256, .bf16⟩
  | .hbm, ⟨38, _⟩ => ⟨S10000x256, .bf16⟩
  | .hbm, ⟨39, _⟩ => ⟨S10000x256, .f32⟩
  | .local _ .vmem, ⟨0, _⟩ => ⟨S2000x256, .bf16⟩
  | .local _ .vmem, ⟨1, _⟩ => ⟨S2000x256, .bf16⟩
  | .local _ .vmem, ⟨2, _⟩ => ⟨S2000x256, .bf16⟩
  | .local _ .vmem, ⟨3, _⟩ => ⟨S2000x256, .bf16⟩
  | .local _ .vmem, ⟨4, _⟩ => ⟨S2000x1, .f32⟩
  | .local _ .vmem, ⟨5, _⟩ => ⟨S2000x1, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  shapeCasts_S10000_S10000x1 : S10000.ShapeCasts S10000x1
  slices_S512x256_S256x256_0_0 : S512x256.Slices ![0, 0] S256x256
  slices_S512x256_S256x256_256_0 : S512x256.Slices ![256, 0] S256x256
  shapeCasts_S256_S1x256 : S256.ShapeCasts S1x256
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S2000x256_S2000 : S2000x256.Reduces [1] S2000
  shapeCasts_S2000_S2000x1 : S2000.ShapeCasts S2000x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .bf16 = 32 ∨ (Rect.block (s := S10000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S10000x256.size a
  hwx0_1 : ∀ i : grid0.Coords, EltTy.bits .bf16 = 32 ∨ (Rect.block (s := S10000x256) S2000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S10000x1.size a
  hwx0_2 : ∀ i : grid0.Coords, EltTy.bits .f32 = 32 ∨ (Rect.block (s := S10000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S10000x256.size a
  hwx0_6 : ∀ i : grid0.Coords, EltTy.bits .f32 = 32 ∨ (Rect.block (s := S10000x256) S2000x256.size (cc0_transform_6 i) (hinb0_6 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v26) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S10000x512 : Shape := ⟨2, ![10000, 512]⟩
abbrev S1x256 : Shape := ⟨2, ![1, 256]⟩

abbrev nBuf : Space → Nat
  | .hbm => 45
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S10000x512, .f32⟩
  | .hbm, ⟨34, _⟩ => ⟨S10000x256, .f32⟩
  | .hbm, ⟨35, _⟩ => ⟨S10000x256, .f32⟩
  | .hbm, ⟨36, _⟩ => ⟨S_, .f32⟩
  | .hbm, ⟨37, _⟩ => ⟨S10000, .f32⟩
  | .hbm, ⟨38, _⟩ => ⟨S10000x1, .f32⟩
  | .hbm, ⟨39, _⟩ => ⟨S10000x1, .f32⟩
  | .hbm, ⟨40, _⟩ => ⟨S10000x256, .f32⟩
  | .hbm, ⟨41, _⟩ => ⟨S10000x256, .f32⟩
  | .hbm, ⟨42, _⟩ => ⟨S1x256, .f32⟩
  | .hbm, ⟨43, _⟩ => ⟨S10000x256, .f32⟩
  | .hbm, ⟨44, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  reducesTo_S10000x256_S10000_d1 : S10000x256.ReducesTo [1] S10000
  h_S_ : 0 < S_.numel
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibDivLaws.lean ====
/-
  Three laws of division on the extended reals that a row normalisation meets.

  On `[-∞, +∞]` the quotient `x / y` is `x · y⁻¹` for `y ≠ 0` (with `(±∞)⁻¹ = 0`), and at `y = 0` it is `+∞`, `-∞` or the
  bottom element by the sign of `x`. The square root is `√x` on `[0, +∞]` and the bottom element below zero; the
  reciprocal square root is `+∞` at `0`, `(√x)⁻¹` at a positive real, `0` at `+∞` and the bottom element below zero.

  * `mul_one_div`: for `c ≠ 0`, multiplying by `1 / c` is dividing by `c` — both are the product with `c⁻¹`; nothing
    needs to be finite.
  * `max_one_ne_zero`: a count clamped below at one is not zero.
  * `div_sqrt_eq_mul_rsqrt`: for `q > 0`, dividing by `√q` is multiplying by the reciprocal square root of `q` — at
    `+∞` both factors are `0`, at a positive real `√q` is a nonzero real whose inverse is the reciprocal square root.
    At `q = 0` the law FAILS for `a = 0`: `0 / √0` is the bottom element while `0 · (+∞) = 0`.
-/
import Idealize.ShloMosaic.PureOps.Ideal
import Idealize.ShloMosaic.PureOps.Ideal.Laws

noncomputable section

namespace Cert.UnitRows

open Idealize.ShloMosaic

/-- Multiplying by `1 / c` is dividing by `c`, for `c ≠ 0`: both are the product with `c⁻¹`. -/
theorem mul_one_div (a c : EReal) (hc : c ≠ 0) : a * Ideal.div 1 c = Ideal.div a c := by
  unfold Ideal.div
  rw [if_neg hc, if_neg hc, one_mul]

/-- The maximum of anything with one is not zero. -/
theorem max_one_ne_zero (c : EReal) : max c 1 ≠ 0 := by
  intro h
  have h1 : (1 : EReal) ≤ max c 1 := le_max_right c 1
  rw [h] at h1
  exact absurd h1 (by norm_num)

/-- For `q > 0`, dividing by `√q` is multiplying by `rsqrt q`. -/
theorem div_sqrt_eq_mul_rsqrt (a q : EReal) (hq : 0 < q) : Ideal.div a (Ideal.sqrt q) = a * Ideal.rsqrt q := by
  induction q using EReal.rec with
  | bot => exact absurd hq not_lt_bot
  | top =>
    rw [show Ideal.sqrt ⊤ = ⊤ from rfl, show Ideal.rsqrt ⊤ = 0 from rfl, Ideal.div, if_neg (by simp), EReal.inv_top]
  | coe r =>
    have hr : 0 < r := by exact_mod_cast hq
    have hs : Real.sqrt r ≠ 0 := (Real.sqrt_pos.2 hr).ne'
    have hsq : Ideal.sqrt (r : EReal) = (Real.sqrt r : EReal) := by
      show (if r < 0 then ⊥ else (Real.sqrt r : EReal)) = _
      rw [if_neg (not_lt.2 hr.le)]
    have hrs : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.2 hr.le), if_neg hr.ne']
    have hne : (Real.sqrt r : EReal) ≠ 0 := by exact_mod_cast hs
    rw [hsq, hrs, Ideal.div, if_neg hne, EReal.coe_inv]

end Cert.UnitRows

end
-- ==== Proof.UnitRows.lean ====
/-
  One graph layer on arrays of extended reals whose rows are scaled to unit Euclidean length.

  Every node `r` has its own features `x (r, ·)` and the sum `a (r, ·)` of its neighbours' features. The mean of the
  neighbours is row `r` of `a` times the reciprocal `s r = 1 / d r` of the (clamped) neighbour count in one spelling
  (`scaleRows`) and row `r` of `a` divided by `d r` in the other (`divRows`); off zero, division on the extended reals
  IS multiplication by the inverse and `1 / d` IS that inverse, so the two means are one array as soon as every `d r` is
  nonzero, entry by entry, with nothing rearranged (`scaleRows_eq_divRows`).

  The row before normalisation is `o (r, c) = ∑ k, x (r, k) · w₁ (k, c) + ∑ k, a' (r, k) · w₂ (k, c)` (`mix`): one
  spelling computes the two products apart, the other joins `x` and `a'` side by side into 512 columns and multiplies
  by the 512-row matrix whose upper half is `w₁` and whose lower half is `w₂`; a sum over 512 positions is the sum over
  the first 256 plus the sum over the last 256 (`rowsByCols_join`) — addition on the extended reals is commutative and
  associative, so nothing needs to be finite.

  With `q r = ∑ c, o (r, c)²` the squared length of row `r`, one spelling returns `o (r, c) · rsqrt (q r) + b c`
  (`unitRows`), the other `o (r, c) / √(0 + q r) + b c` (`quotRows`). For `q r > 0` they agree: at `+∞` both factors
  are `0`; at a positive real, `√q` is a nonzero real, division by it is multiplication by its inverse, and that inverse
  is `rsqrt q` (`div_sqrt_eq_mul_rsqrt`). At `q r = 0` they do NOT agree (`0 · +∞ = 0` against `0 / 0`), which is why the
  law carries the hypothesis that no row has length zero.

  Row `r` of every map here depends on row `r` of its row-indexed operands only, so a block of rows of the operands
  gives the same block of rows of the result (`layer_rows`).
-/
import Idealize.ShloMosaic.Lib.ValueIdx
import Idealize.ShloMosaic.PureOps.Ideal.Laws
import proofs.«168078_j14886356648743_2_alg».proof.Proof.LibPlainProduct
import proofs.«168078_j14886356648743_2_alg».proof.Proof.LibDivLaws

noncomputable section

open scoped BigOperators

namespace Cert.UnitRows

open Idealize.ShloMosaic Idealize.ShloMosaic.ValueIdx Idealize.ShloMosaic.PlainProduct

/-- An `n × m` array of extended reals. -/
abbrev Arr (n m : Nat) := FVec Ideal ⟨2, ![n, m]⟩ .f32

variable {N B : Nat}

/-- Row `r` of `a` times the column entry `s (r, 0)`. -/
def scaleRows (a : Arr N 256) (s : Arr N 1) : Arr N 256 :=
  fun j => a j * s (ix2 (n0 := N) (n1 := 1) (j 0) (0 : Fin 1))

/-- Row `r` of `a` divided by `d r`. -/
def divRows (a : Arr N 256) (d : Fin N → EReal) : Arr N 256 :=
  fun j => Ideal.div (a j) (d (j 0))

/-- The row before normalisation: `x · w₁ + a · w₂`, rows by columns. -/
def mix (x a : Arr N 256) (w1 w2 : Arr 256 256) : Arr N 256 :=
  fun i => rowsByCols x w1 i + rowsByCols a w2 i

/-- The squared Euclidean length of row `r`. -/
def sq (o : Arr N 256) (r : Fin N) : EReal := ∑ c : Fin 256, o (ix2 (n0 := N) (n1 := 256) r c) * o (ix2 (n0 := N) (n1 := 256) r c)

/-- Rows times the reciprocal square root of their squared length, plus the bias row. -/
def unitRows (o : Arr N 256) (b : Fin 256 → EReal) : Arr N 256 :=
  fun i => o i * Ideal.rsqrt (sq o (i 0)) + b (i 1)

/-- Rows divided by the square root of `z` plus their squared length, plus the bias row. -/
def quotRows (o : Arr N 256) (z : EReal) (b : Fin 256 → EReal) : Arr N 256 :=
  fun i => Ideal.div (o i) (Ideal.sqrt (z + sq o (i 0))) + b (i 1)

/-- The whole layer in the first spelling. -/
def layer (x a : Arr N 256) (s : Arr N 1) (w1 w2 : Arr 256 256) (b : Fin 256 → EReal) : Arr N 256 :=
  unitRows (mix x (scaleRows a s) w1 w2) b

/-- The upper 256 rows of a 512-row matrix. -/
def upper (w : Arr 512 256) : Arr 256 256 :=
  fun i => w (ix2 (n0 := 512) (n1 := 256) ⟨(i 0).val, by have := idx2_lt0 i; omega⟩ (i 1))

/-- The lower 256 rows of a 512-row matrix. -/
def lower (w : Arr 512 256) : Arr 256 256 :=
  fun i => w (ix2 (n0 := 512) (n1 := 256) ⟨256 + (i 0).val, by have := idx2_lt0 i; omega⟩ (i 1))

/-! ## The array laws -/

/-- The two means are one array when every divisor is nonzero and the column holds the reciprocals. -/
theorem scaleRows_eq_divRows (a : Arr N 256) (s : Arr N 1) (d : Fin N → EReal)
    (hs : ∀ r : Fin N, s (ix2 (n0 := N) (n1 := 1) r (0 : Fin 1)) = Ideal.div 1 (d r)) (hd : ∀ r, d r ≠ 0) :
    scaleRows a s = divRows a d := by
  funext j
  show a j * s (ix2 (n0 := N) (n1 := 1) (j 0) (0 : Fin 1)) = Ideal.div (a j) (d (j 0))
  rw [hs (j 0), mul_one_div _ _ (hd (j 0))]

/-- The product of the side-by-side join of `x` and `a` with a 512-row matrix is `x` times its upper half plus `a`
    times its lower half. -/
theorem rowsByCols_join (x a : Arr N 256) (xa : Arr N 512) (w : Arr 512 256)
    (hl : ∀ (r : Fin N) (k : Fin 256), xa (ix2 (n0 := N) (n1 := 512) r ⟨k.val, by have := k.isLt; omega⟩) = x (ix2 (n0 := N) (n1 := 256) r k))
    (hr : ∀ (r : Fin N) (k : Fin 256), xa (ix2 (n0 := N) (n1 := 512) r ⟨256 + k.val, by have := k.isLt; omega⟩) = a (ix2 (n0 := N) (n1 := 256) r k))
    (i : (⟨2, ![N, 256]⟩ : Shape).Idx) :
    rowsByCols xa w i = mix x a (upper w) (lower w) i := by
  show (∑ k : Fin (256 + 256), xa (ix2 (n0 := N) (n1 := 512) (i 0) k) * w (ix2 (n0 := 512) (n1 := 256) k (i 1))) = _
  rw [Fin.sum_univ_add]
  refine congrArg₂ (· + ·) (Finset.sum_congr rfl fun k _ => ?_) (Finset.sum_congr rfl fun k _ => ?_)
  · exact congrArg (· * _) (hl (i 0) k)
  · exact congrArg (· * _) (hr (i 0) k)

/-- With no row of length zero, the quotient by the length is the product with the reciprocal square root. -/
theorem quotRows_eq_unitRows (o : Arr N 256) (b : Fin 256 → EReal) (h : ∀ r, 0 < sq o r) :
    quotRows o 0 b = unitRows o b := by
  funext i
  show Ideal.div (o i) (Ideal.sqrt (0 + sq o (i 0))) + b (i 1) = o i * Ideal.rsqrt (sq o (i 0)) + b (i 1)
  rw [zero_add, div_sqrt_eq_mul_rsqrt _ _ (h (i 0))]

/-! ## Blocks of rows -/

/-- Rows `e r` of the layer are the layer of rows `e r` of its row-indexed operands. -/
theorem layer_rows (x a : Arr N 256) (s : Arr N 1) (w1 w2 : Arr 256 256) (b : Fin 256 → EReal)
    (xb ab : Arr B 256) (sb : Arr B 1) (e : Fin B → Fin N)
    (hx : ∀ (r : Fin B) (k : Fin 256), xb (ix2 (n0 := B) (n1 := 256) r k) = x (ix2 (n0 := N) (n1 := 256) (e r) k))
    (ha : ∀ (r : Fin B) (k : Fin 256), ab (ix2 (n0 := B) (n1 := 256) r k) = a (ix2 (n0 := N) (n1 := 256) (e r) k))
    (hs : ∀ r : Fin B, sb (ix2 (n0 := B) (n1 := 1) r (0 : Fin 1)) = s (ix2 (n0 := N) (n1 := 1) (e r) (0 : Fin 1)))
    (r : Fin B) (c : Fin 256) :
    layer xb ab sb w1 w2 b (ix2 (n0 := B) (n1 := 256) r c) = layer x a s w1 w2 b (ix2 (n0 := N) (n1 := 256) (e r) c) := by
  have hsc : ∀ (r : Fin B) (k : Fin 256), scaleRows ab sb (ix2 (n0 := B) (n1 := 256) r k)
      = scaleRows a s (ix2 (n0 := N) (n1 := 256) (e r) k) := fun r k => by
    show ab (ix2 (n0 := B) (n1 := 256) r k) * sb (ix2 (n0 := B) (n1 := 1) r (0 : Fin 1))
      = a (ix2 (n0 := N) (n1 := 256) (e r) k) * s (ix2 (n0 := N) (n1 := 1) (e r) (0 : Fin 1))
    rw [ha, hs]
  have hm : ∀ (r : Fin B) (c : Fin 256), mix xb (scaleRows ab sb) w1 w2 (ix2 (n0 := B) (n1 := 256) r c)
      = mix x (scaleRows a s) w1 w2 (ix2 (n0 := N) (n1 := 256) (e r) c) := fun r c => by
    show rowsByCols xb w1 (ix2 (n0 := B) (n1 := 256) r c) + rowsByCols (scaleRows ab sb) w2 (ix2 (n0 := B) (n1 := 256) r c)
      = rowsByCols x w1 (ix2 (n0 := N) (n1 := 256) (e r) c) + rowsByCols (scaleRows a s) w2 (ix2 (n0 := N) (n1 := 256) (e r) c)
    rw [rowsByCols_rows x w1 xb e hx, rowsByCols_rows (scaleRows a s) w2 (scaleRows ab sb) e hsc]
    rfl
  have hq : sq (mix xb (scaleRows ab sb) w1 w2) r = sq (mix x (scaleRows a s) w1 w2) (e r) :=
    Finset.sum_congr rfl fun c _ => by rw [hm r c]
  show mix xb (scaleRows ab sb) w1 w2 (ix2 (n0 := B) (n1 := 256) r c) * Ideal.rsqrt (sq (mix xb (scaleRows ab sb) w1 w2) r) + b c
    = mix x (scaleRows a s) w1 w2 (ix2 (n0 := N) (n1 := 256) (e r) c) * Ideal.rsqrt (sq (mix x (scaleRows a s) w1 w2) (e r)) + b c
  rw [hm r c, hq]

end Cert.UnitRows

end
-- ==== Proof.KernelRows.lean ====
/-
  The body of the kernel on one block of 2000 rows, read as the layer of the block's rows.

  The body loads a block `x0` of the nodes' own features, the matching block `x1` of neighbour sums, the matching block
  `x2` of the column of reciprocal counts, the two weight matrices `x3`, `x4` and the bias row `x5`; it scales the rows of
  `x1` by `x2`, multiplies `x0` by `x3` and the scaled rows by `x4` on the matrix unit into zero accumulators, adds the
  products, sums the squares along each row, multiplies the row by the reciprocal square root of that sum and adds the bias.
  On the extended reals a change of float format is the identity, a product into a zero accumulator is the plain sum of
  products, and the lane reduction is the plain sum, so the value stored at `(r, c)` is `layer x0 x1 x2 x3 x4 x5` at `(r, c)`.
-/
import proofs.«168078_j14886356648743_2_alg».proof.Proof.Gen.KernelIdeal.Skeleton
import proofs.«168078_j14886356648743_2_alg».proof.Proof.LibPlainProduct
import proofs.«168078_j14886356648743_2_alg».proof.Proof.LibLayout
import proofs.«168078_j14886356648743_2_alg».proof.Proof.LibRows
import proofs.«168078_j14886356648743_2_alg».proof.Proof.UnitRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.ShloMosaic.PlainProduct Cert.UnitRows

/-- The body's dimension numbers are the plain ones: contract the left operand's columns with the right operand's rows. -/
theorem dot_plain : dot_S2000x256_S256x256_S2000x256_1_0_0_1_n_n = DotDims.plain 2000 256 256 := rfl

/-- A row `[1, n]` broadcast to `[m, n]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The neighbour sums widened, times the broadcast column, narrowed again: the rows scaled by the column. -/
theorem scaled_eq (x1 : FVec Ideal S2000x256 .bf16) (x2 : FVec Ideal S2000x1 .f32) (hb : FTy.bf16.bits < FTy.f32.bits)
    (hbr : S2000x1.Broadcasts S2000x256) :
    (truncf .bf16 (mulf (extf .f32 x1 hb) (broadcastTo S2000x256 x2 hbr)) hb : FVec Ideal S2000x256 .bf16)
      = scaleRows (N := 2000) x1 x2 := by
  funext j
  obtain ⟨p, q, rfl⟩ : ∃ (p : Fin 2000) (q : Fin 256), j = ix2 p q := ⟨j 0, j 1, eq_ix2 j⟩
  show x1 (ix2 p q) * broadcastTo S2000x256 x2 hbr (ix2 p q) = x1 (ix2 p q) * x2 (ix2 p (0 : Fin 1))
  rw [Cert.LibLayout.broadcastTo_a1_ab_apply]

/-- The two matrix-unit products into zero, added: the row before normalisation. -/
theorem mix_eq (x0 x1 : FVec Ideal S2000x256 .bf16) (x2 : FVec Ideal S2000x1 .f32) (x3 x4 : FVec Ideal S256x256 .f32)
    (hb : FTy.bf16.bits < FTy.f32.bits) (hbr : S2000x1.Broadcasts S2000x256) :
    addf (matmul dot_S2000x256_S256x256_S2000x256_1_0_0_1_n_n none x0 (truncf .bf16 x3 hb) (constant S2000x256 .f32 0x00000000#32))
        (matmul dot_S2000x256_S256x256_S2000x256_1_0_0_1_n_n none
          (truncf .bf16 (mulf (extf .f32 x1 hb) (broadcastTo S2000x256 x2 hbr)) hb) (truncf .bf16 x4 hb)
          (constant S2000x256 .f32 0x00000000#32))
      = mix (N := 2000) x0 (scaleRows x1 x2) x3 x4 := by
  rw [scaled_eq x1 x2 hb hbr, dot_plain]
  funext j
  show FloatOps.matmul (DotDims.plain 2000 256 256) none x0 x3 (constant ⟨2, ![2000, 256]⟩ .f32 0x00000000#32) j
      + FloatOps.matmul (DotDims.plain 2000 256 256) none (scaleRows (N := 2000) x1 x2) x4 (constant ⟨2, ![2000, 256]⟩ .f32 0x00000000#32) j
    = rowsByCols x0 x3 j + rowsByCols (scaleRows (N := 2000) x1 x2) x4 j
  rw [matmul_zero_plain, matmul_zero_plain]

/-- The row times the reciprocal square root of its squared length, plus the bias row, as the body spells it. -/
theorem tail_eq (o : FVec Ideal S2000x256 .f32) (x5 : FVec Ideal S1x256 .f32)
    (hred : S2000x256.Reduces [(1 : Fin 2)] S2000) (hφ : FKind.Formats FTy.f32) (hacc : (0x00000000#32 : BitVec FTy.f32.bits) = FKind.add.neutral FTy.f32 hφ)
    (hsc : S2000.ShapeCasts S2000x1) (hbr : S2000x1.Broadcasts S2000x256) (hbr5 : S1x256.Broadcasts S2000x256)
    (r : Fin 2000) (c : Fin 256) :
    addf (mulf o (broadcastTo S2000x256 (rsqrt (shapeCast S2000x1 (multiReduction .add [(1 : Fin 2)] S2000 (mulf o o) 0x00000000#32 hred hφ hacc) hsc)) hbr))
        (broadcastTo S2000x256 x5 hbr5) (ix2 r c)
      = unitRows (N := 2000) o (fun c => x5 (ix2 (n0 := 1) (n1 := 256) (0 : Fin 1) c)) (ix2 r c) := by
  show o (ix2 r c) * broadcastTo S2000x256 (rsqrt (shapeCast S2000x1 (multiReduction .add [(1 : Fin 2)] S2000 (mulf o o) 0x00000000#32 hred hφ hacc) hsc)) hbr (ix2 r c)
      + broadcastTo S2000x256 x5 hbr5 (ix2 r c)
    = o (ix2 r c) * Ideal.rsqrt (sq o r) + x5 (ix2 (0 : Fin 1) c)
  rw [Cert.LibLayout.broadcastTo_a1_ab_apply, broadcastTo_1b_ab_apply]
  show o (ix2 r c) * Ideal.rsqrt (shapeCast S2000x1 (multiReduction .add [(1 : Fin 2)] S2000 (mulf o o) 0x00000000#32 hred hφ hacc) hsc (ix2 r (0 : Fin 1)))
      + x5 (ix2 (0 : Fin 1) c) = _
  rw [Cert.LibLayout.shapeCast_a_a1_apply, Cert.LibRows.rowSum_apply]
  rfl

/-- What the body stores at `(r, c)` of its block: the layer of the block's rows. -/
theorem pay_eq (x0 x1 : Vec Ideal S2000x256 .bf16) (x2 : Vec Ideal S2000x1 .f32) (x3 x4 : Vec Ideal S256x256 .f32)
    (x5 : Vec Ideal S1x256 .f32) (r : Fin 2000) (c : Fin 256) :
    k0_pay1 (F := Ideal) x0 x1 x2 x3 x4 x5 (ix2 r c)
      = layer (N := 2000) x0 x1 x2 x3 x4 (fun c => x5 (ix2 (n0 := 1) (n1 := 256) (0 : Fin 1) c)) (ix2 r c) := by
  unfold k0_pay1
  simp only [shapeCast_self]
  refine (tail_eq _ x5 _ _ _ _ _ _ r c).trans ?_
  exact congrArg (fun o => unitRows (N := 2000) o (fun c => x5 (ix2 (n0 := 1) (n1 := 256) (0 : Fin 1) c)) (ix2 r c))
    (mix_eq x0 x1 x2 x3 x4 _ _)

end Cert.KernelIdeal.Body

end
-- ==== Proof.KernelValue.lean ====
/-
  From the blocks to the whole result array of the kernel.

  The grid has five points; point `t` works on rows `2000·t … 2000·t + 1999` of the 10000 nodes: it reads those rows of the
  nodes' features, of the neighbour sums and of the column of reciprocal counts, the two weight matrices and the bias row
  whole, and writes the same rows of the result. Every map of the layer acts row by row, so what point `t` writes is
  rows `2000·t …` of the layer of the WHOLE arrays; the five blocks of rows tile the result array, which therefore ends
  holding the layer of the whole arrays.
-/
import proofs.«168078_j14886356648743_2_alg».proof.Proof.Gen.KernelIdeal.Value
import proofs.«168078_j14886356648743_2_alg».proof.Proof.KernelRows

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.UnitRows
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer of the arrays as the region finds them: the result array's contents after the run. -/
def G (c : Dev nD) : S10000x256.Idx → EReal :=
  layer (N := 10000) (V m c main_v26) (V m c main_v27) (V m c main_v22) (V m c main_v23) (V m c main_v24)
    (fun k => V m c main_v25 (ix2 (n0 := 1) (n1 := 256) (0 : Fin 1) k))

/-- The printed index maps, decided over the five points: the three row-blocked inputs move with the output's block of
    rows, the weights and the bias stay at block zero, and the output's block of rows is one of the five. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = win0_6.index t (0 : Fin 2)
    ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 4 ∧ win0_6.index t (1 : Fin 2) = 0 :=
  (by decide +kernel : ∀ t : Fin grid0.N, _)

/-- Every one of the five blocks of rows is some point's. -/
theorem idx_onto : ∀ q : Fin 5, ∃ t : Fin cfg0.N, win0_6.index t = ![q.val, 0] :=
  (by decide +kernel : ∀ q : Fin 5, ∃ t : Fin grid0.N, win0_6.index t = ![q.val, 0])

/-- One block of rows: if the loaded blocks hold rows `e r` of the whole arrays, the stored value at `j` is the layer
    of the whole arrays at row `e (j 0)`, column `j 1`. -/
theorem block_eq (X A : Arr 10000 256) (s : Arr 10000 1) (w1 w2 : Arr 256 256) (b5 : FVec Ideal S1x256 .f32)
    (x0 x1 : Vec Ideal S2000x256 .bf16) (x2 : Vec Ideal S2000x1 .f32) (x3 x4 : Vec Ideal S256x256 .f32)
    (x5 : Vec Ideal S1x256 .f32) (e : Fin 2000 → Fin 10000)
    (h0 : ∀ (r : Fin 2000) (k : Fin 256), x0 (ix2 r k) = X (ix2 (e r) k))
    (h1 : ∀ (r : Fin 2000) (k : Fin 256), x1 (ix2 r k) = A (ix2 (e r) k))
    (h2 : ∀ r : Fin 2000, x2 (ix2 r (0 : Fin 1)) = s (ix2 (e r) (0 : Fin 1)))
    (h3 : x3 = w1) (h4 : x4 = w2) (h5 : x5 = b5) (j : S2000x256.Idx) :
    k0_pay1 (F := Ideal) x0 x1 x2 x3 x4 x5 j
      = layer (N := 10000) X A s w1 w2 (fun k => b5 (ix2 (n0 := 1) (n1 := 256) (0 : Fin 1) k)) (ix2 (e (j 0)) (j 1)) := by
  subst h3 h4 h5
  obtain ⟨r, k, rfl⟩ : ∃ (r : Fin 2000) (k : Fin 256), j = ix2 r k := ⟨j 0, j 1, eq_ix2 j⟩
  rw [Body.pay_eq]
  exact layer_rows (N := 10000) (B := 2000) X A s x3 x4 _ x0 x1 x2 e h0 h1 h2 r k

/-- What point `t` writes back is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz]
  simp only [View.ld_unit_zero (S := S2000x256) hz, View.ld_unit_zero (S := S2000x1) hz, View.ld_unit_zero (S := S256x256) hz,
    View.ld_unit_zero (S := S1x256) hz]
  obtain ⟨e0, e1, e2, e3, e4, e5, e6, e7, e8, e9, e10, e11, e12, e13⟩ := idx_facts t
  funext j
  show k0_pay1 (iblk m c 0 t) (iblk m c 1 t) (iblk m c 2 t) (iblk m c 3 t) (iblk m c 4 t) (iblk m c 5 t) j
    = G m c (((cfg0.win 6).blk t).view.emb j)
  refine (block_eq (V m c main_v26) (V m c main_v27) (V m c main_v22) (V m c main_v23) (V m c main_v24) (V m c main_v25)
    _ _ _ _ _ _ (fun r => ⟨win0_6.index t (0 : Fin 2) * 2000 + r.val, by have := r.isLt; omega⟩) ?_ ?_ ?_ ?_ ?_ ?_ j).trans ?_
  · intro r k
    show V m c main_v26 (((cfg0.win 0).blk t).view.emb (ix2 r k)) = _
    refine congrArg _ (funext fun a => Fin.ext ?_)
    match a with
    | ⟨0, _⟩ => show win0_0.index t (0 : Fin 2) * 2000 + 1 * r.val = win0_6.index t (0 : Fin 2) * 2000 + r.val; omega
    | ⟨1, _⟩ => show win0_0.index t (1 : Fin 2) * 256 + 1 * k.val = k.val; omega
  · intro r k
    show V m c main_v27 (((cfg0.win 1).blk t).view.emb (ix2 r k)) = _
    refine congrArg _ (funext fun a => Fin.ext ?_)
    match a with
    | ⟨0, _⟩ => show win0_1.index t (0 : Fin 2) * 2000 + 1 * r.val = win0_6.index t (0 : Fin 2) * 2000 + r.val; omega
    | ⟨1, _⟩ => show win0_1.index t (1 : Fin 2) * 256 + 1 * k.val = k.val; omega
  · intro r
    show V m c main_v22 (((cfg0.win 2).blk t).view.emb (ix2 r (0 : Fin 1))) = _
    refine congrArg _ (funext fun a => Fin.ext ?_)
    match a with
    | ⟨0, _⟩ => show win0_2.index t (0 : Fin 2) * 2000 + 1 * r.val = win0_6.index t (0 : Fin 2) * 2000 + r.val; omega
    | ⟨1, _⟩ => show win0_2.index t (1 : Fin 2) * 1 + 1 * 0 = 0; omega
  · funext y
    show V m c main_v23 (((cfg0.win 3).blk t).view.emb y) = V m c main_v23 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  · funext y
    show V m c main_v24 (((cfg0.win 4).blk t).view.emb y) = V m c main_v24 y
    refine congrArg _ (funext fun a => Fin.ext ?_)
    match a with
    | ⟨0, _⟩ => show win0_4.index t (0 : Fin 2) * 256 + 1 * (y 0).val = (y 0).val; omega
    | ⟨1, _⟩ => show win0_4.index t (1 : Fin 2) * 256 + 1 * (y 1).val = (y 1).val; omega
  · funext y
    show V m c main_v25 (((cfg0.win 5).blk t).view.emb y) = V m c main_v25 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 256 + 1 * (y 1).val = (y 1).val; omega
  · unfold G
    refine congrArg _ (funext fun a => Fin.ext ?_)
    match a with
    | ⟨0, _⟩ => show win0_6.index t (0 : Fin 2) * 2000 + (j 0).val = win0_6.index t (0 : Fin 2) * 2000 + 1 * (j 0).val; omega
    | ⟨1, _⟩ => show (j 1).val = win0_6.index t (1 : Fin 2) * 256 + 1 * (j 1).val; omega

/-- An index of the result array is in point `t`'s block iff each coordinate is in the block's range on its axis. -/
theorem mem_blk (t : Fin cfg0.N) (i : S10000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v28).slice (win0_6.rect t)).set ↔ _
  rw [View.set_slice_whole, Rect.mem_set_unit]
  exact Iff.rfl

/-- Every index of the result array lies in the block of rows of the point that works on its row. -/
theorem cover (i : S10000x256.Idx) :
    ∃ t : Fin cfg0.N, (cfg0.win 6).flush t = true ∧ i ∈ ((cfg0.win 6).blk t).view.set := by
  have hi0 : (i 0).val < 10000 := (i 0).isLt
  have hi1 : (i 1).val < 256 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- The result array after the run is the layer of the arrays as the region finds them. -/
theorem final (c : Dev nD) : (dats m 0 c).arrAt 6 cfg0.N = G m c :=
  (dats m 0 c).arrAt_eq_of_cover 6 (G m c) (fun t _ => flushed_eq m c t) cover

/-- The kernel's run: every weakly fair execution ends with the result array at `G` and the arguments unchanged. -/
theorem run : θ_run defs (onTc (τ := τ) (main (F := Ideal))) ⟨m, fun _ => 0, ρ⟩ fun r => ∀ c : Dev nD,
      r.2.mem ((c : Thread nD τ).loc main_v28) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibConcat.lean ====
/-
  Two arrays with the same number of rows joined along their second axis, read at coordinates.

  The join `[a, n₁] ++ [a, n₂] → [a, n]` keeps rows apart: at `(r, d)` it reads the first array at `(r, d)` when the
  column `d` lies below the first array's width `n₁`, and otherwise the second array at `(r, d − n₁)`.  The three
  lemmas name the operand's index by coordinates, so that they apply by unification at any extents.
-/
import Idealize.ShloMosaic.Lib.Pipeline.Value
import Idealize.ShloMosaic.Lib.ValueIdx

namespace Cert.LibConcat

open Idealize.ShloMosaic Idealize.ShloMosaic.ValueIdx

variable {α : Type}

/-- A column of the first piece: the join at `(r, d)` with `d < n₁` is the first array at `(r, d)`. -/
theorem concat_cols_left {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (r : Fin a) (d : Fin n)
    (hd : d.val < n1) :
    concatenate ⟨2, ![a, n]⟩ (1 : Fin 2) [⟨⟨2, ![a, n1]⟩, x1⟩, ⟨⟨2, ![a, n2]⟩, x2⟩] h (ix2 r d) = x1 (ix2 r ⟨d.val, hd⟩) :=
  concatenate_pair_apply_left (1 : Fin 2) x1 x2 h (ix2 r d) rfl (ix2 r ⟨d.val, hd⟩) (fun b => by
    match b with
    | ⟨0, _⟩ => rfl
    | ⟨1, _⟩ => rfl)

/-- A column of the second piece: the join at `(r, d)` with `n₁ ≤ d` is the second array at `(r, d − n₁)`. -/
theorem concat_cols_right {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (r : Fin a) (d : Fin n)
    (hd : n1 ≤ d.val) (hd2 : d.val - n1 < n2) :
    concatenate ⟨2, ![a, n]⟩ (1 : Fin 2) [⟨⟨2, ![a, n1]⟩, x1⟩, ⟨⟨2, ![a, n2]⟩, x2⟩] h (ix2 r d) = x2 (ix2 r ⟨d.val - n1, hd2⟩) :=
  concatenate_pair_apply_right (1 : Fin 2) x1 x2 h (ix2 r d) rfl rfl (ix2 r ⟨d.val - n1, hd2⟩)
    (fun b hb => by
      match b with
      | ⟨0, _⟩ => rfl
      | ⟨1, _⟩ => exact absurd (Fin.ext rfl) hb)
    (by show (d.val - n1) + n1 = d.val; omega)

/-- Both cases at once, as the choice on the column. -/
theorem concat_cols_apply {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (hn : n = n1 + n2)
    (r : Fin a) (d : Fin n) :
    concatenate ⟨2, ![a, n]⟩ (1 : Fin 2) [⟨⟨2, ![a, n1]⟩, x1⟩, ⟨⟨2, ![a, n2]⟩, x2⟩] h (ix2 r d)
      = if hd : d.val < n1 then x1 (ix2 r ⟨d.val, hd⟩)
        else x2 (ix2 r ⟨d.val - n1, by have := d.isLt; omega⟩) := by
  by_cases hd : d.val < n1
  · rw [dif_pos hd]; exact concat_cols_left x1 x2 h r d hd
  · rw [dif_neg hd]; exact concat_cols_right x1 x2 h r d (Nat.le_of_not_lt hd) _

end Cert.LibConcat
-- ==== Proof.LibWords.lean ====
/-
  The two float literals whose values the proof uses, as the extended reals their binary words denote: `1.0` is `1` and
  `3.0` is the real `3`. (The zero word is the library's `Ideal.ofBits_zero_f32`.)
-/
import Idealize.ShloMosaic.PureOps.Ideal
import Idealize.ShloMosaic.PureOps.Ideal.Laws

noncomputable section

namespace Cert.Words

open Idealize.ShloMosaic

/-- The word of `1.0` denotes `1`. -/
theorem one : Ideal.ofBits .f32 0x3F800000#32 = 1 := by
  simp [Ideal.ofBits, Ideal.ieee, -EReal.coe_mul]; norm_num

/-- The word of `3.0` denotes the real `3`. -/
theorem three : Ideal.ofBits .f32 0x40400000#32 = ((3 : ℝ) : EReal) := by
  simp [Ideal.ofBits, Ideal.ieee, -EReal.coe_mul]; norm_num

end Cert.Words

end
-- ==== Proof.ReferenceRows.lean ====
/-
  The reference's value, written with the specification's maps.

  The reference computes, for every node `r`, the sum `a (r, ·)` of its neighbours' features and the number of its
  neighbours; it clamps that number below at one (`cnt`), divides row `r` of `a` by it, joins the node's own features
  `x (r, ·)` and that mean side by side into 512 columns and multiplies by the 512-row weight matrix. Entry `(r, c)` of
  the product is a sum over 512 positions; its first 256 terms read `x` against the upper half of the weights and its
  last 256 terms read the mean against the lower half, so the product is `mix x (a / cnt) (upper w) (lower w)`
  (`rows_eq`). The clamped count is a maximum with one, hence never zero (`cnt_ne_zero`).

  The reference then squares every entry of the product, sums each row starting from zero, takes the square root,
  divides the row by it and adds the bias row: entry `(r, c)` of the result is
  `o (r, c) / √(0 + ∑ k, o (r, k)²) + b c`, which is `quotRows o 0 b` (`result_eq`).

  The neighbour sums and the neighbour counts themselves are never opened: only where they are read matters here.
-/
import proofs.«168078_j14886356648743_2_alg».proof.Proof.Gen.ReferenceIdeal.Read
import proofs.«168078_j14886356648743_2_alg».proof.Proof.UnitRows
import proofs.«168078_j14886356648743_2_alg».proof.Proof.LibConcat
import proofs.«168078_j14886356648743_2_alg».proof.Proof.LibPlainProduct
import proofs.«168078_j14886356648743_2_alg».proof.Proof.LibWords

noncomputable section

open scoped BigOperators

namespace Cert.ReferenceIdeal.RefValue

open Cert.ReferenceIdeal Cert.ReferenceIdeal.Gen Cert.ReferenceIdeal.Read Cert.UnitRows Idealize.ShloMosaic Idealize.ShloMosaic.ValueIdx
  Idealize.ShloMosaic.PlainProduct

variable (x0 : (⟨S10000x256, .f32⟩ : BufTy).Contents (Elt Ideal)) (e : (⟨S2x320000, .i32⟩ : BufTy).Contents (Elt Ideal))
  (w : (⟨S512x256, .f32⟩ : BufTy).Contents (Elt Ideal)) (b : (⟨S256, .f32⟩ : BufTy).Contents (Elt Ideal))

/-- The number of neighbours of node `r`, clamped below at one. -/
def cnt (r : Fin 10000) : EReal := val_main_v19 (F := Ideal) e (ix1 r)

/-- The clamped count is the maximum of the count and one, so it is not zero. -/
theorem cnt_ne_zero (r : Fin 10000) : cnt e r ≠ 0 := by
  unfold cnt
  rw [val_main_v19_apply, val_main_v18_apply, val_main_cst_3_apply, Ideal.maximumf_def, Ideal.ofBits_def, Cert.Words.one]
  exact max_one_ne_zero _

/-- A column `k < 256` of the joined array is the node's own feature `x (r, k)`. -/
theorem join_left (r : Fin 10000) (k : Fin 256) :
    val_main_v23 (F := Ideal) x0 e (ix2 (n0 := 10000) (n1 := 512) r ⟨k.val, by have := k.isLt; omega⟩)
      = x0 (ix2 (n0 := 10000) (n1 := 256) r k) := by
  unfold val_main_v23
  exact Cert.LibConcat.concat_cols_left x0 (val_main_v22 (F := Ideal) x0 e)
    concatenates_S10000x256_S10000x256_S10000x512_d1 r ⟨k.val, by have := k.isLt; omega⟩ k.isLt

/-- A column `256 + k` of the joined array is the neighbours' sum `a (r, k)` divided by the clamped count of row `r`:
    the divisor is one number per row, repeated along the row. -/
theorem join_right (r : Fin 10000) (k : Fin 256) :
    val_main_v23 (F := Ideal) x0 e (ix2 (n0 := 10000) (n1 := 512) r ⟨256 + k.val, by have := k.isLt; omega⟩)
      = divRows (N := 10000) (val_main_v13 (F := Ideal) x0 e) (cnt e) (ix2 (n0 := 10000) (n1 := 256) r k) := by
  have hk : (⟨256 + k.val - 256, by have := k.isLt; omega⟩ : Fin 256) = k := Fin.ext (by show 256 + k.val - 256 = k.val; omega)
  have hi : idx_main_v20 (idx_main_v21 (ix2 (n0 := 10000) (n1 := 256) r k)) = ix1 r :=
    funext fun a => Fin.ext (by match a with | ⟨0, _⟩ => rfl)
  unfold val_main_v23
  rw [Cert.LibConcat.concat_cols_right x0 (val_main_v22 (F := Ideal) x0 e)
    concatenates_S10000x256_S10000x256_S10000x512_d1 r ⟨256 + k.val, by have := k.isLt; omega⟩
    (by show 256 ≤ 256 + k.val; omega) (by have := k.isLt; show 256 + k.val - 256 < 256; omega), hk,
    val_main_v22_apply, val_main_v21_apply, val_main_v20_apply, hi, Ideal.hostDivf_def]
  rfl

/-- The product of the joined array with the 512-row weights is `x` times their upper half plus the neighbours' mean
    times their lower half. -/
theorem rows_eq : val_main_v24 (F := Ideal) x0 e w
    = mix (N := 10000) x0 (divRows (val_main_v13 (F := Ideal) x0 e) (cnt e)) (upper w) (lower w) := by
  funext i
  have hl : ∀ k : Fin 512, lidx_main_v24 i k = ix2 (n0 := 10000) (n1 := 512) (i 0) k := fun k =>
    funext fun a => Fin.ext (by match a with | ⟨0, _⟩ => rfl | ⟨1, _⟩ => rfl)
  have hr : ∀ k : Fin 512, ridx_main_v24 i k = ix2 (n0 := 512) (n1 := 256) k (i 1) := fun k =>
    funext fun a => Fin.ext (by match a with | ⟨0, _⟩ => rfl | ⟨1, _⟩ => rfl)
  rw [val_main_v24_apply]
  simp only [hl, hr]
  exact rowsByCols_join (N := 10000) x0 (divRows (val_main_v13 (F := Ideal) x0 e) (cnt e)) (val_main_v23 (F := Ideal) x0 e) w
    (join_left x0 e) (join_right x0 e) i

/-- The reference's result: every row of the product divided by the square root of zero plus its squared length, plus
    the bias row. -/
theorem result_eq : val_main_v30 (F := Ideal) x0 e w b
    = quotRows (N := 10000) (val_main_v24 (F := Ideal) x0 e w) 0 (fun c => b (ix1 c)) := by
  funext i
  obtain ⟨r, c, rfl⟩ : ∃ (r : Fin 10000) (c : Fin 256), i = ix2 (n0 := 10000) (n1 := 256) r c := ⟨i 0, i 1, eq_ix2 i⟩
  rw [val_main_v30_apply, val_main_v27_apply, val_main_v29_apply, val_main_v28_apply, val_main_v26_apply,
    val_main_v25_apply, val_main_call0_v2_apply, val_main_call0_v1_apply, val_main_call0_cst_apply]
  have hi : ∀ k : Fin 256, idx_main_call0_v1 (idx_main_call0_v2 (idx_main_v26 (ix2 (n0 := 10000) (n1 := 256) r c))) k
      = ix2 (n0 := 10000) (n1 := 256) r k := fun k =>
    funext fun a => Fin.ext (by match a with | ⟨0, _⟩ => rfl | ⟨1, _⟩ => rfl)
  have hb : idx_main_v28 (idx_main_v29 (ix2 (n0 := 10000) (n1 := 256) r c)) = ix1 c :=
    funext fun a => Fin.ext (by match a with | ⟨0, _⟩ => rfl)
  simp only [hi, hb, val_main_call0_v0_apply, Ideal.addf_def, Ideal.hostDivf_def, Ideal.hostUnary_sqrt_def, Ideal.mulf_def,
    Ideal.ofBits_def, Ideal.ofBits_zero_f32]
  rfl

end Cert.ReferenceIdeal.RefValue

end
-- ==== Proof.HostArrays.lean ====
/-
  The arrays the kernel program's host operations hand to its region, as functions of the program's arguments.

  Before its region the kernel program prepares six arrays from its four arguments `x` (node features), `e` (edges),
  `w` (a 512-row weight matrix) and `b` (a bias row):

  * the node features themselves, after a change of float format — on the extended reals a change of format is the
    identity, so this array is `x` (`V_v26`);
  * the sum of every node's neighbours' features, again after a change of format — the operations that build it are,
    one for one, the operations by which the reference builds its own neighbour sums, so the two arrays are the same
    term (`V_v27`);
  * a column holding, for every node `r`, the quotient of one by the node's neighbour count clamped below at one — a
    vector turned into a column reads the vector at the row, the numerator is the constant whose word denotes `1`, and
    the clamped count is built by the reference's own operations (`V_v22`);
  * the upper and the lower 256 rows of `w`: a slice starting at row `0` (resp. `256`) and column `0` reads `w` at the
    row moved by that offset and at the same column (`V_v23`, `V_v24`);
  * the bias as a one-row array: position `(0, k)` of the row-major reshape of a vector is position `k` (`V_v25`).
-/
import proofs.«168078_j14886356648743_2_alg».proof.Proof.Gen.KernelIdeal.Frame
import proofs.«168078_j14886356648743_2_alg».proof.Proof.Gen.ReferenceIdeal.Read
import proofs.«168078_j14886356648743_2_alg».proof.Proof.ReferenceRows
import proofs.«168078_j14886356648743_2_alg».proof.Proof.UnitRows
import proofs.«168078_j14886356648743_2_alg».proof.Proof.LibLayout
import proofs.«168078_j14886356648743_2_alg».proof.Proof.LibWords
import Idealize.ShloMosaic.Lib.Pipeline.Value
import Idealize.ShloMosaic.Lib.ValueIdx
import Idealize.ShloMosaic.Lib.StableHlo.Run
import Idealize.ShloMosaic.Lib.IdealHost

noncomputable section

namespace Cert.KernelIdeal.HostArrays

open Cert.KernelIdeal Cert.KernelIdeal.Gen Idealize.ShloMosaic Idealize.ShloMosaic.TcCoe Idealize.SL.Sem
  Idealize.ShloMosaic.ValueIdx Idealize.ShloMosaic.StableHlo Cert.UnitRows

variable (m : (ℓ : Loc nD τ sig) → Buf (Elt Ideal) ℓ) (c : Dev nD)

/-- Narrowing the float format is the identity on arrays of extended reals. -/
theorem truncf_ideal {s : Shape} (a : FVec Ideal s .f32) (h : FTy.bf16.bits < FTy.f32.bits) :
    (truncf .bf16 a h : s.Idx → EReal) = a := rfl

/-- The first array is the node features: a change of float format is the identity on the extended reals. -/
theorem V_v26 : (V m c main_v26 : S10000x256.Idx → EReal) = m ((c : Thread nD τ).loc main_arg0) := by
  dsimp only [Gen.V, Gen.hostOps0]
  after_results_simp
  exact truncf_ideal _ bitsLt_bf16_f32

/-- The second array is the reference's array of neighbour sums: the same operations on the same arguments, then a
    change of float format. -/
theorem V_v27 : (V m c main_v27 : S10000x256.Idx → EReal)
    = Cert.ReferenceIdeal.Read.val_main_v13 (F := Ideal) (m ((c : Thread nD τ).loc main_arg0)) (m ((c : Thread nD τ).loc main_arg1)) := by
  dsimp only [Gen.V, Gen.hostOps0]
  after_results_simp
  refine (truncf_ideal _ bitsLt_bf16_f32).trans ?_
  rfl

/-- Row `r` of the column of reciprocals is one divided by the clamped neighbour count of node `r`. -/
theorem V_v22 (r : Fin 10000) : V m c main_v22 (ix2 (n0 := 10000) (n1 := 1) r (0 : Fin 1))
    = Ideal.div 1 (Cert.ReferenceIdeal.RefValue.cnt (m ((c : Thread nD τ).loc main_arg1)) r) := by
  have e : (V m c main_v22 : S10000x1.Idx → EReal)
      = shapeCast S10000x1 (Host.divf (broadcastInDim S10000 ![] bcast_S_S10000 (constant (F := Ideal) S_ .f32 0x3F800000#32))
          (Cert.ReferenceIdeal.Read.val_main_v19 (F := Ideal) (m ((c : Thread nD τ).loc main_arg1)))) shapeCasts_S10000_S10000x1 := by
    dsimp only [Gen.V, Gen.hostOps0]
    after_results_simp
    rfl
  refine (congrFun e (ix2 (n0 := 10000) (n1 := 1) r (0 : Fin 1))).trans ?_
  rw [Cert.LibLayout.shapeCast_a_a1_apply, hostDivf_apply, broadcastInDim_scalar_apply, constant_apply, Cert.Words.one]
  rfl

/-- The fourth array is the upper 256 rows of the weights. -/
theorem V_v23 : (V m c main_v23 : S256x256.Idx → EReal) = upper (m ((c : Thread nD τ).loc main_arg2)) := by
  have e : (V m c main_v23 : S256x256.Idx → EReal)
      = extractStridedSlice S256x256 ![0, 0] (m ((c : Thread nD τ).loc main_arg2)) slices_S512x256_S256x256_0_0 := by
    dsimp only [Gen.V, Gen.hostOps0]
    after_results_simp
  rw [e]
  funext i
  exact extractStridedSlice_apply ![0, 0] _ slices_S512x256_S256x256_0_0 i
    (ix2 (n0 := 512) (n1 := 256) ⟨(i 0).val, by have := idx2_lt0 i; omega⟩ (i 1)) (fun a => match a with
    | ⟨0, _⟩ => by show (i 0).val = 0 + (i 0).val; omega
    | ⟨1, _⟩ => by show (i 1).val = 0 + (i 1).val; omega)

/-- The fifth array is the lower 256 rows of the weights. -/
theorem V_v24 : (V m c main_v24 : S256x256.Idx → EReal) = lower (m ((c : Thread nD τ).loc main_arg2)) := by
  have e : (V m c main_v24 : S256x256.Idx → EReal)
      = extractStridedSlice S256x256 ![256, 0] (m ((c : Thread nD τ).loc main_arg2)) slices_S512x256_S256x256_256_0 := by
    dsimp only [Gen.V, Gen.hostOps0]
    after_results_simp
  rw [e]
  funext i
  exact extractStridedSlice_apply ![256, 0] _ slices_S512x256_S256x256_256_0 i
    (ix2 (n0 := 512) (n1 := 256) ⟨256 + (i 0).val, by have := idx2_lt0 i; omega⟩ (i 1)) (fun a => match a with
    | ⟨0, _⟩ => by show 256 + (i 0).val = 256 + (i 0).val; omega
    | ⟨1, _⟩ => by show (i 1).val = 0 + (i 1).val; omega)

/-- Entry `(0, k)` of the one-row bias array is entry `k` of the bias. -/
theorem V_v25 (k : Fin 256) : V m c main_v25 (ix2 (n0 := 1) (n1 := 256) (0 : Fin 1) k)
    = m ((c : Thread nD τ).loc main_arg3) (ix1 k) := by
  have e : (V m c main_v25 : S1x256.Idx → EReal)
      = shapeCast S1x256 (m ((c : Thread nD τ).loc main_arg3)) shapeCasts_S256_S1x256 := by
    dsimp only [Gen.V, Gen.hostOps0]
    after_results_simp
    rfl
  refine (congrFun e (ix2 (n0 := 1) (n1 := 256) (0 : Fin 1) k)).trans ?_
  exact shapeCast_apply _ shapeCasts_S256_S1x256 _ (ix1 k)
    (by rw [Shape.rowMajor_val_one, Shape.rowMajor_val_two]; show k.val = 0 * 256 + k.val; omega)

end Cert.KernelIdeal.HostArrays

end
-- ==== Proof.NoZeroRow.lean ====
/-
  The precondition read back: no row before normalisation has squared length zero.

  The certificate's precondition is a conjunction of one-bit claims about the four arguments. Its last conjunct computes
  the array `o` before normalisation by the same chain of operations as the reference — neighbour rows gathered and
  summed per node, the neighbour count clamped below by one, the quotient of the two joined to the node's own features
  side by side, and the product of the join with the weight — then forms `q r = 0 + ∑ c, o (r, c) · o (r, c)` for every
  row `r` and asks that `q r > 0` holds for ALL rows: a fold by "and" over the 10000 one-bit comparisons, started at 1.

  A conjunction that is 1 has both conjuncts 1; a fold by "and" from 1 that is 1 met only 1s, so the comparison at row
  `r` is 1; on the extended reals the comparison "greater than" is 1 exactly when the strict inequality holds, and the
  word of `0.0` is the extended real `0`. Hence `0 < 0 + ∑ c, o (r, c) · o (r, c)`, and `0 + s = s`: the squared length
  of row `r` of `o` is positive. The two copies of the chain (the precondition's and the reference's) are spelt with the
  same operations on the same shapes, so they are one term by unfolding; nothing about what the gathers and scattered
  sums compute is used.
-/
import proofs.«168078_j14886356648743_2_alg».proof.Proof.Gen.ReferenceIdeal.Read
import proofs.«168078_j14886356648743_2_alg».proof.Proof.Gen.Pre_finite_inputs
import proofs.«168078_j14886356648743_2_alg».proof.Proof.UnitRows
import Idealize.ShloMosaic.Lib.ReduceAll

noncomputable section

open scoped BigOperators

namespace Cert.ReferenceIdeal.NoZeroRow

open Cert.ReferenceIdeal Cert.ReferenceIdeal.Gen Cert.ReferenceIdeal.Read Idealize.ShloMosaic Idealize.ShloMosaic.ValueIdx

/-- On the extended reals the comparison "`a` greater than `z`" is the bit 1 only when `z < a`. -/
theorem lt_of_cmp_ogt (a z : EReal) (h : Ideal.cmp .ogt a z = 1#1) : z < a := by
  have h1 : BitVec.ofBool (decide (z < a)) = 1#1 := h
  by_cases hlt : z < a
  · exact hlt
  · rw [decide_eq_false hlt] at h1
    exact absurd h1 (by decide)

/-- The precondition's last conjunct at row `r`: zero plus the sum of the squares of row `r` of the array before
    normalisation (the reference's own name for that sum) is positive. The outer "and" gives the last conjunct, the fold
    by "and" over all rows gives the comparison at row `r`, and the comparison gives the inequality. -/
theorem sum_pos (x0 : (⟨S10000x256, .f32⟩ : BufTy).Contents (Elt Ideal)) (e : (⟨S2x320000, .i32⟩ : BufTy).Contents (Elt Ideal))
    (w : (⟨S512x256, .f32⟩ : BufTy).Contents (Elt Ideal)) (b : (⟨S256, .f32⟩ : BufTy).Contents (Elt Ideal))
    (h : Cert.Pre_finite_inputs.fn (F := Ideal) x0 e w b = fun _ => 1#1) (r : Fin 10000) :
    0 < val_main_call0_v1 (F := Ideal) x0 e w (ix1 r) := by
  have h0 := congrFun h ix0
  -- the precondition is `(…) and (all rows positive)`: keep the right conjunct
  obtain ⟨-, hall⟩ := IntOp.andi_eq_one.1 (show IntOp.andi _ _ = 1#1 from h0)
  -- the scalar shape has one index
  haveI : Subsingleton Cert.Pre_finite_inputs.S_.Idx := ⟨fun a b => funext fun d => d.elim0⟩
  -- "all" at row `r`; the precondition's sum of squares is the reference's, the same operations on the same arguments
  have hr : Ideal.cmp .ogt (val_main_call0_v1 (F := Ideal) x0 e w (ix1 r)) (Ideal.ofBits .f32 0x00000000#32) = 1#1 :=
    Host.reduce_andi_all _ _ _ _ _ hall (ix1 r)
  have hlt := lt_of_cmp_ogt _ _ hr
  rw [Ideal.ofBits_zero_f32] at hlt
  exact hlt

/-- The reference's sum of squares at row `r`, `0 + ∑ c, o (r, c) · o (r, c)`, is the squared length of row `r` of `o`. -/
theorem sum_eq_sq (x0 : (⟨S10000x256, .f32⟩ : BufTy).Contents (Elt Ideal)) (e : (⟨S2x320000, .i32⟩ : BufTy).Contents (Elt Ideal))
    (w : (⟨S512x256, .f32⟩ : BufTy).Contents (Elt Ideal)) (r : Fin 10000) :
    val_main_call0_v1 (F := Ideal) x0 e w (ix1 r) = Cert.UnitRows.sq (N := 10000) (val_main_v24 (F := Ideal) x0 e w) r := by
  rw [val_main_call0_v1_apply, val_main_call0_cst_apply, Ideal.ofBits_def, Ideal.ofBits_zero_f32, zero_add]
  refine Finset.sum_congr rfl fun k _ => ?_
  have hi : idx_main_call0_v1 (ix1 r) k = ix2 (n0 := 10000) (n1 := 256) r k :=
    funext fun a => Fin.ext (by match a with | ⟨0, _⟩ => rfl | ⟨1, _⟩ => rfl)
  rw [val_main_call0_v0_apply, hi, Ideal.mulf_def]

/-- Under the precondition no row of the array before normalisation has squared length zero: every row's squared
    length is positive. -/
theorem rows_pos (x0 : (⟨S10000x256, .f32⟩ : BufTy).Contents (Elt Ideal)) (e : (⟨S2x320000, .i32⟩ : BufTy).Contents (Elt Ideal))
    (w : (⟨S512x256, .f32⟩ : BufTy).Contents (Elt Ideal)) (b : (⟨S256, .f32⟩ : BufTy).Contents (Elt Ideal))
    (h : Cert.Pre_finite_inputs.fn (F := Ideal) x0 e w b = fun _ => 1#1) (r : Fin 10000) :
    0 < Cert.UnitRows.sq (N := 10000) (Cert.ReferenceIdeal.Read.val_main_v24 (F := Ideal) x0 e w) r := by
  rw [← sum_eq_sq]
  exact sum_pos x0 e w b h r

end Cert.ReferenceIdeal.NoZeroRow

end
-- ==== Proof.Bridge.lean ====
/-
  The two programs compute one array.

  The kernel's result array ends at the layer (`Cert.UnitRows.layer`) of the arrays its host operations prepare: the nodes'
  features `x`, the neighbour sums `a`, the column of reciprocals `1 / cnt r` of the clamped neighbour counts, the upper
  and the lower half of the weights, and the bias. The reference ends at the quotient form: rows of
  `x · upper w + (a / cnt) · lower w` divided by their Euclidean length, plus the bias. The neighbour sums and counts are
  the same terms of the arguments on both sides. Dividing a row by `cnt r ≠ 0` is multiplying it by `1 / cnt r`; and,
  the precondition excluding rows of length zero, dividing by the length is multiplying by the reciprocal square root of
  the squared length. So the reference's result is the kernel's.
-/
import proofs.«168078_j14886356648743_2_alg».proof.Proof.KernelValue
import proofs.«168078_j14886356648743_2_alg».proof.Proof.HostArrays
import proofs.«168078_j14886356648743_2_alg».proof.Proof.ReferenceRows
import proofs.«168078_j14886356648743_2_alg».proof.Proof.NoZeroRow

noncomputable section

open scoped BigOperators

namespace Cert.Bridge

open Idealize.ShloMosaic Idealize.ShloMosaic.TcCoe Idealize.SL.Sem Idealize.ShloMosaic.ValueIdx Cert.UnitRows

/-- The column of reciprocals of the clamped neighbour counts. -/
def recip (e : (⟨Cert.ReferenceIdeal.S2x320000, .i32⟩ : BufTy).Contents (Elt Ideal)) : Arr 10000 1 :=
  fun i => Ideal.div 1 (Cert.ReferenceIdeal.RefValue.cnt e (i 0))

/-- The one function of the four arguments both programs end at. -/
def spec (x0 : (⟨Cert.ReferenceIdeal.S10000x256, .f32⟩ : BufTy).Contents (Elt Ideal))
    (e : (⟨Cert.ReferenceIdeal.S2x320000, .i32⟩ : BufTy).Contents (Elt Ideal))
    (w : (⟨Cert.ReferenceIdeal.S512x256, .f32⟩ : BufTy).Contents (Elt Ideal))
    (b : (⟨Cert.ReferenceIdeal.S256, .f32⟩ : BufTy).Contents (Elt Ideal)) : Arr 10000 256 :=
  layer (N := 10000) x0 (Cert.ReferenceIdeal.Read.val_main_v13 (F := Ideal) x0 e) (recip e) (upper w) (lower w)
    (fun k => b (ix1 k))

/-- The layer reads its column operand at `(r, 0)` only: two columns that agree there give one layer. -/
theorem layer_col {N : Nat} (x a : Arr N 256) (s s' : Arr N 1) (w1 w2 : Arr 256 256) (b : Fin 256 → EReal)
    (h : ∀ r : Fin N, s (ix2 (n0 := N) (n1 := 1) r (0 : Fin 1)) = s' (ix2 (n0 := N) (n1 := 1) r (0 : Fin 1))) :
    layer x a s w1 w2 b = layer x a s' w1 w2 b := by
  have hs : s = s' := funext fun i => by
    have hi : i = ix2 (n0 := N) (n1 := 1) (i 0) (0 : Fin 1) := by
      funext d
      match d with
      | ⟨0, _⟩ => rfl
      | ⟨1, _⟩ => exact Fin.ext (by have := idx2_lt1 i; show (i 1).val = 0; omega)
    rw [hi]; exact h (i 0)
  rw [hs]

/-- The kernel's result array is `spec` of the arguments. -/
theorem kernel_eq (m : (ℓ : Loc Cert.KernelIdeal.nD Cert.KernelIdeal.τ Cert.KernelIdeal.sig) → Buf (Elt Ideal) ℓ)
    (c : Dev Cert.KernelIdeal.nD) :
    Cert.KernelIdeal.Whole.G m c
      = spec (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  unfold Cert.KernelIdeal.Whole.G spec
  rw [Cert.KernelIdeal.HostArrays.V_v26, Cert.KernelIdeal.HostArrays.V_v27, Cert.KernelIdeal.HostArrays.V_v23,
    Cert.KernelIdeal.HostArrays.V_v24, funext (Cert.KernelIdeal.HostArrays.V_v25 m c)]
  exact layer_col _ _ _ _ _ _ _ (fun r => Cert.KernelIdeal.HostArrays.V_v22 m c r)

/-- Under the precondition the reference's result is `spec` of the arguments. -/
theorem reference_eq (x0 : (⟨Cert.ReferenceIdeal.S10000x256, .f32⟩ : BufTy).Contents (Elt Ideal))
    (e : (⟨Cert.ReferenceIdeal.S2x320000, .i32⟩ : BufTy).Contents (Elt Ideal))
    (w : (⟨Cert.ReferenceIdeal.S512x256, .f32⟩ : BufTy).Contents (Elt Ideal))
    (b : (⟨Cert.ReferenceIdeal.S256, .f32⟩ : BufTy).Contents (Elt Ideal))
    (h : Cert.Pre_finite_inputs.fn (F := Ideal) x0 e w b = fun _ => 1#1) :
    Cert.ReferenceIdeal.Read.val_main_v30 (F := Ideal) x0 e w b = spec x0 e w b := by
  rw [Cert.ReferenceIdeal.RefValue.result_eq,
    quotRows_eq_unitRows _ _ (Cert.ReferenceIdeal.NoZeroRow.rows_pos x0 e w b h),
    Cert.ReferenceIdeal.RefValue.rows_eq,
    ← scaleRows_eq_divRows (Cert.ReferenceIdeal.Read.val_main_v13 (F := Ideal) x0 e) (recip e)
      (Cert.ReferenceIdeal.RefValue.cnt e) (fun _ => rfl) (Cert.ReferenceIdeal.RefValue.cnt_ne_zero e)]
  rfl

end Cert.Bridge

end
-- ==== Proof.lean ====
/-
  One graph layer with rows scaled to unit Euclidean length: the kernel against its reference, on the extended reals.

  Both programs first form, on the host and by the same operations, the sum of every node's neighbour features and the
  number of its neighbours clamped below at one. The kernel then works on five blocks of 2000 rows: it multiplies the
  neighbour sums by the reciprocal of the clamped count, multiplies the node's own features and that mean by the upper
  and the lower half of the weights, adds the two products, multiplies each row by the reciprocal square root of its
  squared length and adds the bias. The reference divides the neighbour sums by the clamped count, joins the two inputs
  side by side, multiplies by the whole weight matrix, divides each row by the square root of its squared length and
  adds the bias.

  On the extended reals: dividing by a nonzero count is multiplying by its reciprocal; a sum over 512 positions is the
  sum over the first 256 plus the sum over the last 256; and for a row whose squared length is positive, dividing by
  the length is multiplying by the reciprocal square root. A row of length zero is the one place where the two differ
  (`0 · +∞ = 0` against `0 / 0`); there the reference divides zero by zero, and the precondition excludes it.

  The three frames are the generated ones (the reference's is its run with the result dropped), no operation of the kernel
  was rewritten by the idealization, and the value claim sets the kernel's run (`Whole.run`, the blocks assembled into
  the whole array) beside the reference's run, both ending at `Bridge.spec` of the arguments.
-/
import proofs.«168078_j14886356648743_2_alg».proof.Defs
import proofs.«168078_j14886356648743_2_alg».proof.Proof.Gen.Kernel
import proofs.«168078_j14886356648743_2_alg».proof.Proof.Gen.Kernel.Skeleton
import proofs.«168078_j14886356648743_2_alg».proof.Proof.Gen.Kernel.Launch
import proofs.«168078_j14886356648743_2_alg».proof.Proof.Gen.Kernel.Points
import proofs.«168078_j14886356648743_2_alg».proof.Proof.Gen.Kernel.Frame
import proofs.«168078_j14886356648743_2_alg».proof.Proof.Gen.KernelIdeal
import proofs.«168078_j14886356648743_2_alg».proof.Proof.Gen.KernelIdeal.Skeleton
import proofs.«168078_j14886356648743_2_alg».proof.Proof.Gen.KernelIdeal.Launch
import proofs.«168078_j14886356648743_2_alg».proof.Proof.Gen.KernelIdeal.Points
import proofs.«168078_j14886356648743_2_alg».proof.Proof.Gen.KernelIdeal.Frame
import proofs.«168078_j14886356648743_2_alg».proof.Proof.Gen.ReferenceIdeal
import proofs.«168078_j14886356648743_2_alg».proof.Proof.Gen.Pre_finite_inputs
import proofs.«168078_j14886356648743_2_alg».proof.Proof.Gen.KernelIdeal.Value
import proofs.«168078_j14886356648743_2_alg».proof.Proof.Gen.ReferenceIdeal.Run
import proofs.«168078_j14886356648743_2_alg».proof.Proof.Gen.ReferenceIdeal.Read
import proofs.«168078_j14886356648743_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments and satisfy the precondition, both programs end with the result array at
    `Bridge.spec` of the arguments. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2]
  exact (Cert.Bridge.reference_eq _ _ _ _ (hpre c)).trans (Cert.Bridge.kernel_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
